-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : IVec S10000 1) (main_arg3 : FVec F S128x128 .f32) (main_arg4 : FVec F S128 .f32) (main_arg5 : FVec F S128x128 .f32) (main_arg6 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S10000x1 : Shape := ⟨2, ![10000, 1]⟩
abbrev S1x128 : Shape := ⟨2, ![1, 128]⟩
abbrev S400x10000 : Shape := ⟨2, ![400, 10000]⟩
abbrev S400x1 : Shape := ⟨2, ![400, 1]⟩
abbrev S400x128 : Shape := ⟨2, ![400, 128]⟩

abbrev nBuf : Space → Nat
  | .hbm => 13
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000, .f32⟩
  | .hbm, ⟨8, _⟩ => ⟨S10000x1, .f32⟩
  | .hbm, ⟨9, _⟩ => ⟨S1x128, .f32⟩
  | .hbm, ⟨10, _⟩ => ⟨S10000x128, .f32⟩
  | .hbm, ⟨11, _⟩ => ⟨S1x128, .f32⟩
  | .hbm, ⟨12, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x1, .f32⟩
  | .local _ .vmem, ⟨6, _⟩ => ⟨S400x1, .f32⟩
  | .local _ .vmem, ⟨7, _⟩ => ⟨S400x128, .f32⟩
  | .local _ .vmem, ⟨8, _⟩ => ⟨S400x128, .f32⟩
  | .local _ .vmem, ⟨9, _⟩ => ⟨S400x10000, .f32⟩
  | .local _ .vmem, ⟨10, _⟩ => ⟨S400x10000, .f32⟩
  | .local _ .vmem, ⟨11, _⟩ => ⟨S10000x128, .f32⟩
  | .local _ .vmem, ⟨12, _⟩ => ⟨S128x128, .f32⟩
  | .local _ .vmem, ⟨13, _⟩ => ⟨S1x128, .f32⟩
  | .local _ .vmem, ⟨14, _⟩ => ⟨S400x1, .f32⟩
  | .local _ .vmem, ⟨15, _⟩ => ⟨S400x1, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S10000_S10000x1_0 : S10000.BroadcastsInDim S10000x1 (![0] : Fin 1 → Fin S10000x1.rank)
  bcast_S128_S1x128_1 : S128.BroadcastsInDim S1x128 (![1] : Fin 1 → Fin S1x128.rank)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S10000x1.size a
  hwx0_4 : ∀ i : grid0.Coords, EltTy.bits .f32 = 32 ∨ (Rect.block (s := S10000x1) S400x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S10000x1.size a
  hwx1_4 : ∀ i : grid1.Coords, EltTy.bits .f32 = 32 ∨ (Rect.block (s := S10000x1) S400x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S400x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000 : Shape := ⟨1, ![10000]⟩
abbrev S128x128 : Shape := ⟨2, ![128, 128]⟩
abbrev S128 : Shape := ⟨1, ![128]⟩
abbrev S10000x1 : Shape := ⟨2, ![10000, 1]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000, .i1⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S10000, .f32⟩
  | .hbm, ⟨8, _⟩ => ⟨S10000x1, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«160218_g79293686219349_cont_9to1_m_1102_4_alg».proof.Proof.LibContract
import proofs.«160218_g79293686219349_cont_9to1_m_1102_4_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibColumnForms.lean ====
/-
  A vector kept as a one-column matrix, read at an entry.

  A row-wise reduction that keeps its axis (a sum over the columns of an [a, n] block, kept as [a, 1]) is spelt by a
  vector program in two steps: the lane sum into a vector of length a, then a shape cast that stands the vector up
  as a column. The column is then spread across the b columns of an [a, b] block by a broadcast; its transpose, a
  [1, a] row, is spread down the rows. Here each step is read at an entry given by its coordinates:

    the column of a vector              [a]    → [a, 1]   entry (i, 0) is the vector's entry i;
    a column spread across the columns  [a, 1] → [a, b]   entry (i, j) is the column's entry (i, 0);
    a lane sum over the second axis     [a, n] → [a]      entry i is the sum over k < n of the block's entry (i, k),
                                                          on the extended reals, where the zero accumulator is the
                                                          sum's neutral element and leaves no trace.

  (The transpose of a column into a row and the spreading of a row down the rows are in the library's layout file.)
-/
import Idealize.ShloMosaic.Lib.ValueIdx
import Idealize.ShloMosaic.Lib.Pipeline.Value
import Idealize.ShloMosaic.PureOps.Ideal.Laws

noncomputable section

open scoped BigOperators

namespace Idealize.ShloMosaic.ColumnForms

open Idealize.ShloMosaic Idealize.ShloMosaic.ValueIdx

variable {α : Type}

/-- A vector stood up as a one-column matrix by a shape cast: entry (i, 0) is the vector's entry i (the two indices
    have the same row-major position, i · 1 + 0 = i). -/
theorem shapeCast_a_a1_apply {a : ℕ} (v : (⟨1, ![a]⟩ : Shape).Idx → α)
    (h : (⟨1, ![a]⟩ : Shape).ShapeCasts ⟨2, ![a, 1]⟩) (i : Fin a) :
    shapeCast ⟨2, ![a, 1]⟩ v h (ix2 i (0 : Fin 1)) = v (ix1 i) := by
  refine shapeCast_apply v h (ix2 i (0 : Fin 1)) (ix1 i) ?_
  rw [Shape.rowMajor_val_one, Shape.rowMajor_val_two]
  show i.val = i.val * 1 + 0
  omega

/-- A one-column matrix spread across b columns by a broadcast: entry (i, j) is the column's entry (i, 0). -/
theorem broadcastTo_a1_ab_apply {a b : ℕ} (w : (⟨2, ![a, 1]⟩ : Shape).Idx → α)
    (h : (⟨2, ![a, 1]⟩ : Shape).Broadcasts ⟨2, ![a, b]⟩) (i : Fin a) (j : Fin b) :
    broadcastTo ⟨2, ![a, b]⟩ w h (ix2 i j) = w (ix2 i (0 : Fin 1)) := by
  refine broadcastTo_apply w h (ix2 i j) (ix2 i (0 : Fin 1)) fun ax => ?_
  match ax with
  | ⟨0, _⟩ =>
    show i.val = if a = 1 then 0 else i.val
    split
    · have := i.isLt; omega
    · rfl
  | ⟨1, _⟩ => rfl

/-- A lane sum of an [a, n] block over its second axis, on the extended reals: entry i is the sum over the n columns of
    the block's row i. The accumulator word is the sum's neutral element, whatever proof of that the program carries. -/
theorem laneSum_apply {a n : ℕ} {φ : FTy} (x : FVec Ideal (⟨2, ![a, n]⟩ : Shape) φ) (acc : BitVec φ.bits)
    (h : (⟨2, ![a, n]⟩ : Shape).Reduces [1] ⟨1, ![a]⟩) (hφ : FKind.Formats φ) (hacc : acc = FKind.add.neutral φ hφ) (i : Fin a) :
    multiReduction .add [1] ⟨1, ![a]⟩ x acc h hφ hacc (ix1 i) = ∑ k : Fin n, x (ix2 i k) := by
  refine (Ideal.multiReduction_add_single x acc h hφ hacc (ix1 i)).trans ?_
  refine Finset.sum_congr rfl fun k _ => congrArg x (funext fun c => Fin.ext ?_)
  match c with
  | ⟨0, _⟩ => rfl
  | ⟨1, _⟩ => rfl

/-- The same lane sum as an f32 program prints it: the accumulator is the zero word, and the proof it carries that the
    word is the sum's neutral element is a proof that zero is zero. -/
theorem laneSum_zero_f32_apply {a n : ℕ} (x : FVec Ideal (⟨2, ![a, n]⟩ : Shape) .f32)
    (h : (⟨2, ![a, n]⟩ : Shape).Reduces [1] ⟨1, ![a]⟩) (hφ : FKind.Formats .f32)
    (hacc : (0x00000000#32 : BitVec 32) = 0x00000000#32) (i : Fin a) :
    multiReduction .add [1] ⟨1, ![a]⟩ x 0x00000000#32 h hφ hacc (ix1 i) = ∑ k : Fin n, x (ix2 i k) :=
  laneSum_apply x 0x00000000#32 h hφ hacc i

end Idealize.ShloMosaic.ColumnForms

end
-- ==== Proof.LibVecRows.lean ====
/-
  A vector laid along every row of a block, in a vector program's spelling.

  A vector program sends a vector v : [N] to an [n, N] block in two steps: a shape cast that adds a leading unit
  axis, [N] → [1, N], then a broadcast that copies that one row down the n rows. The shape cast keeps the row-major
  position, so (0, j) reads v j; the broadcast reads row 0 whatever the row asked for. Entry (r, j) of the result is
  therefore v j, for any extents.
-/
import Idealize.ShloMosaic.Lib.ValueIdx
import Idealize.ShloMosaic.Lib.Pipeline.Value

noncomputable section

namespace Idealize.ShloMosaic.VecRows

open Idealize.ShloMosaic Idealize.ShloMosaic.ValueIdx

variable {α : Type}

/-- A vector viewed as a one-row matrix: entry (0, j) is the vector's entry j. -/
theorem castRow_apply {N : Nat} (h : (⟨1, ![N]⟩ : Shape).ShapeCasts ⟨2, ![1, N]⟩)
    (v : (⟨1, ![N]⟩ : Shape).Idx → α) (j : Fin N) :
    shapeCast (⟨2, ![1, N]⟩ : Shape) v h (ix2 (0 : Fin 1) j) = v (ix1 j) := by
  refine shapeCast_apply v h (ix2 (0 : Fin 1) j) (ix1 j) ?_
  rw [Shape.rowMajor_val_two, Shape.rowMajor_val_one]
  show j.val = 0 * N + j.val
  omega

/-- A one-row matrix copied down n rows: entry (r, j) is the row's entry j. -/
theorem spreadRow_apply {n N : Nat} (h : (⟨2, ![1, N]⟩ : Shape).Broadcasts ⟨2, ![n, N]⟩)
    (w : (⟨2, ![1, N]⟩ : Shape).Idx → α) (r : Fin n) (j : Fin N) :
    broadcastTo (⟨2, ![n, N]⟩ : Shape) w h (ix2 r j) = w (ix2 (0 : Fin 1) j) := by
  refine broadcastTo_apply w h (ix2 r j) (ix2 (0 : Fin 1) j) (fun a => ?_)
  match a with
  | ⟨0, _⟩ =>
    show 0 = if (1 : Nat) = 1 then 0 else r.val
    rw [if_pos rfl]
  | ⟨1, _⟩ =>
    show j.val = if N = 1 then 0 else j.val
    split_ifs with hN
    · have := j.isLt; omega
    · rfl

/-- The two steps together: a vector cast to one row and copied down n rows reads v j at (r, j). -/
theorem rows_apply {n N : Nat} (h1 : (⟨1, ![N]⟩ : Shape).ShapeCasts ⟨2, ![1, N]⟩)
    (h2 : (⟨2, ![1, N]⟩ : Shape).Broadcasts ⟨2, ![n, N]⟩) (v : (⟨1, ![N]⟩ : Shape).Idx → α) (r : Fin n) (j : Fin N) :
    broadcastTo (⟨2, ![n, N]⟩ : Shape) (shapeCast (⟨2, ![1, N]⟩ : Shape) v h1) h2 (ix2 r j) = v (ix1 j) :=
  (spreadRow_apply h2 _ r j).trans (castRow_apply h1 v j)

end Idealize.ShloMosaic.VecRows

end
-- ==== Proof.LayerEntry.lean ====
/-
  One layer of a dense graph network, entry by entry, on the extended reals.

  A layer takes the adjacency matrix A (10000 × 10000), the node features X (10000 × 128), a weight matrix W
  (128 × 128), a bias b (one number per column) and a mask μ (one number per row), and returns

      Y (r, j) = max ( ( ∑ q < 128, ( ∑ k < 10000, A (r, k) · X (k, q) ) · W (q, j)  +  b (j) ) · μ (r) ,  0 ).

  The entry depends on row r of A, on all of X, on column j of W, and on one entry each of b and μ: `cell` is that
  function of those data. Two programs compute it.

  A vector program works on a stripe of 400 rows of A and of μ: it multiplies the stripe by X into a zero accumulator,
  multiplies the result by W into a zero accumulator, adds the bias row copied down the 400 rows, multiplies by the
  mask column copied across the 128 columns, and takes the maximum with a splat of zero.

  The host works on whole arrays: two contractions, the bias laid along every row and the mask along every column by
  two placements each, and the maximum with a scalar zero sent to every entry.

  Both form the sums in the same grouping (first over k, then over q), and every other step acts on one entry at a
  time. So the two agree by reading each operation at an entry; no law of arithmetic is used that could fail at an
  infinity.
-/
import Idealize.ShloMosaic.Lib.ValueIdx
import Idealize.ShloMosaic.Lib.Pipeline.Value
import Idealize.ShloMosaic.PureOps.Ideal.Laws
import proofs.«160218_g79293686219349_cont_9to1_m_1102_4_alg».proof.Proof.LibDenseVec
import proofs.«160218_g79293686219349_cont_9to1_m_1102_4_alg».proof.Proof.LibColumnForms
import proofs.«160218_g79293686219349_cont_9to1_m_1102_4_alg».proof.Proof.LibVecRows

noncomputable section

open scoped BigOperators

namespace Cert.GraphLayer

open Idealize.ShloMosaic Idealize.ShloMosaic.ValueIdx

/-- The adjacency matrix. -/
abbrev SAdj : Shape := ⟨2, ![10000, 10000]⟩
/-- The node features, and a layer's result. -/
abbrev SFeat : Shape := ⟨2, ![10000, 128]⟩
/-- A weight matrix. -/
abbrev SW : Shape := ⟨2, ![128, 128]⟩
/-- The bias as one row. -/
abbrev SRow : Shape := ⟨2, ![1, 128]⟩
/-- The mask as one column. -/
abbrev SCol : Shape := ⟨2, ![10000, 1]⟩
/-- A stripe of 400 rows of the adjacency matrix. -/
abbrev SStripe : Shape := ⟨2, ![400, 10000]⟩
/-- The same 400 rows of the mask column. -/
abbrev SStripeCol : Shape := ⟨2, ![400, 1]⟩
/-- The same 400 rows of the result. -/
abbrev SStripeOut : Shape := ⟨2, ![400, 128]⟩

/-- One entry of a layer's result: from a row of the adjacency matrix, the features, a column of the weights, the
    column's bias and the row's mask. -/
def cell (arow : Fin 10000 → EReal) (x : SFeat.Idx → EReal) (wcol : Fin 128 → EReal) (b mk : EReal) : EReal :=
  max (((∑ q : Fin 128, (∑ k : Fin 10000, arow k * x (ix2 k q)) * wcol q) + b) * mk) (Ideal.ofBits .f32 0x00000000#32)

/-- An entry only depends on the data named: equal data give equal entries. -/
theorem cell_congr {arow arow' : Fin 10000 → EReal} {x x' : SFeat.Idx → EReal} {wcol wcol' : Fin 128 → EReal} {b b' mk mk' : EReal}
    (h0 : ∀ k, arow k = arow' k) (h1 : x = x') (h2 : ∀ q, wcol q = wcol' q) (h3 : b = b') (h4 : mk = mk') :
    cell arow x wcol b mk = cell arow' x' wcol' b' mk' := by
  rw [funext h0, h1, funext h2, h3, h4]

/-- A layer's result as one function of its five arrays: the bias given as a row, the mask as a column. -/
def layer (adj : SAdj.Idx → EReal) (x : SFeat.Idx → EReal) (w : SW.Idx → EReal) (b : SRow.Idx → EReal)
    (mk : SCol.Idx → EReal) : SFeat.Idx → EReal :=
  fun i => cell (fun k => adj (ix2 (i 0) k)) x (fun q => w (ix2 q (i 1))) (b (ix2 (0 : Fin 1) (i 1))) (mk (ix2 (i 0) (0 : Fin 1)))

/-- The vector program's arithmetic on a stripe, read at the stripe's entry (p, j): the layer's entry from row p of the
    stripe, column j of the weights, the bias row's entry j and the stripe's mask entry p. -/
theorem stripe_entry {D1 : DotDims SStripe SFeat SStripeOut} {D2 : DotDims SStripeOut SW SStripeOut}
    (h1 : DenseVec.Plain D1) (h2 : DenseVec.Plain D2) (hb : SRow.Broadcasts SStripeOut) (hm : SStripeCol.Broadcasts SStripeOut)
    (a : FVec Ideal SStripe .f32) (x : FVec Ideal SFeat .f32) (w : FVec Ideal SW .f32) (b : FVec Ideal SRow .f32)
    (mk : FVec Ideal SStripeCol .f32) (p : Fin 400) (j : Fin 128) :
    maximumf (mulf (addf
        (matmul D2 none (matmul D1 none a x (constant (F := Ideal) SStripeOut .f32 0x00000000#32)) w
          (constant (F := Ideal) SStripeOut .f32 0x00000000#32))
        (broadcastTo SStripeOut b hb)) (broadcastTo SStripeOut mk hm))
      (broadcast SStripeOut (Scalar.ofBits (F := Ideal) .f32 0x00000000#32)) (ix2 p j)
      = cell (fun k => a (ix2 p k)) x (fun q => w (ix2 q j)) (b (ix2 (0 : Fin 1) j)) (mk (ix2 p (0 : Fin 1))) := by
  show max ((matmul D2 none _ w _ (ix2 p j) + broadcastTo SStripeOut b hb (ix2 p j)) * broadcastTo SStripeOut mk hm (ix2 p j)) _ = _
  rw [DenseVec.matmul_zero_ix2 h2, VecRows.spreadRow_apply, ColumnForms.broadcastTo_a1_ab_apply]
  simp only [DenseVec.matmul_zero_ix2 h1]
  rfl

/-- A vector set under a unit axis as one row: entry (0, j) is the vector's entry j. -/
theorem row_apply {α : Type} {n : Nat} (h : (⟨1, ![n]⟩ : Shape).BroadcastsInDim ⟨2, ![1, n]⟩ ![1])
    (v : (⟨1, ![n]⟩ : Shape).Idx → α) (j : Fin n) :
    broadcastInDim (⟨2, ![1, n]⟩ : Shape) ![1] h v (ix2 (0 : Fin 1) j) = v (ix1 j) := by
  refine broadcastInDim_apply _ h v (ix2 (0 : Fin 1) j) (ix1 j) (fun x => ?_)
  match x with
  | ⟨0, _⟩ =>
    show j.val = if n = 1 then 0 else j.val
    split_ifs with hn
    · have := j.isLt; omega
    · rfl

/-- The host's arithmetic on whole arrays, read at the entry (r, j): the layer's entry from row r of the adjacency
    matrix, column j of the weights, the bias' entry j and the mask's entry r. -/
theorem host_entry {D1 : DotDims SAdj SFeat SFeat} {D2 : DotDims SFeat SW SFeat}
    (h1 : DenseVec.Plain D1) (h2 : DenseVec.Plain D2)
    (hb1 : (⟨1, ![128]⟩ : Shape).BroadcastsInDim SRow ![1]) (hb2 : SRow.BroadcastsInDim SFeat ![0, 1])
    (hm1 : (⟨1, ![10000]⟩ : Shape).BroadcastsInDim SCol ![0]) (hm2 : SCol.BroadcastsInDim SFeat ![0, 1])
    (hz : (⟨0, ![]⟩ : Shape).BroadcastsInDim SFeat ![])
    (adj : FVec Ideal SAdj .f32) (x : FVec Ideal SFeat .f32) (w : FVec Ideal SW .f32)
    (b : FVec Ideal (⟨1, ![128]⟩ : Shape) .f32) (mf : FVec Ideal (⟨1, ![10000]⟩ : Shape) .f32) (r : Fin 10000) (j : Fin 128) :
    maximumf (mulf (addf (Host.dotGeneral D2 none (Host.dotGeneral D1 none adj x) w)
        (broadcastInDim SFeat ![0, 1] hb2 (broadcastInDim SRow ![1] hb1 b)))
        (broadcastInDim SFeat ![0, 1] hm2 (broadcastInDim SCol ![0] hm1 mf)))
      (broadcastInDim SFeat ![] hz (constant (F := Ideal) (⟨0, ![]⟩ : Shape) .f32 0x00000000#32)) (ix2 r j)
      = cell (fun k => adj (ix2 r k)) x (fun q => w (ix2 q j)) (b (ix1 j)) (mf (ix1 r)) := by
  show max ((Host.dotGeneral D2 none _ w (ix2 r j) + broadcastInDim SFeat ![0, 1] hb2 (broadcastInDim SRow ![1] hb1 b) (ix2 r j))
    * broadcastInDim SFeat ![0, 1] hm2 (broadcastInDim SCol ![0] hm1 mf) (ix2 r j)) _ = _
  rw [DenseVec.dotGeneral_ix2 h2, Keepdims.cols_apply, Keepdims.rows_apply]
  simp only [DenseVec.dotGeneral_ix2 h1]
  rfl

/-- The host's layer on whole arrays is `layer` of the bias set as a row and the mask set as a column. -/
theorem host_layer {D1 : DotDims SAdj SFeat SFeat} {D2 : DotDims SFeat SW SFeat}
    (h1 : DenseVec.Plain D1) (h2 : DenseVec.Plain D2)
    (hb1 : (⟨1, ![128]⟩ : Shape).BroadcastsInDim SRow ![1]) (hb2 : SRow.BroadcastsInDim SFeat ![0, 1])
    (hm1 : (⟨1, ![10000]⟩ : Shape).BroadcastsInDim SCol ![0]) (hm2 : SCol.BroadcastsInDim SFeat ![0, 1])
    (hz : (⟨0, ![]⟩ : Shape).BroadcastsInDim SFeat ![])
    (adj : FVec Ideal SAdj .f32) (x : FVec Ideal SFeat .f32) (w : FVec Ideal SW .f32)
    (b : FVec Ideal (⟨1, ![128]⟩ : Shape) .f32) (mf : FVec Ideal (⟨1, ![10000]⟩ : Shape) .f32) :
    maximumf (mulf (addf (Host.dotGeneral D2 none (Host.dotGeneral D1 none adj x) w)
        (broadcastInDim SFeat ![0, 1] hb2 (broadcastInDim SRow ![1] hb1 b)))
        (broadcastInDim SFeat ![0, 1] hm2 (broadcastInDim SCol ![0] hm1 mf)))
      (broadcastInDim SFeat ![] hz (constant (F := Ideal) (⟨0, ![]⟩ : Shape) .f32 0x00000000#32))
      = layer adj x w (broadcastInDim SRow ![1] hb1 b) (broadcastInDim SCol ![0] hm1 mf) := by
  funext i
  obtain ⟨r, j, rfl⟩ : ∃ (r : Fin 10000) (j : Fin 128), i = ix2 r j := ⟨i 0, i 1, eq_ix2 i⟩
  rw [host_entry h1 h2 hb1 hb2 hm1 hm2 hz adj x w b mf r j]
  show _ = cell (fun k => adj (ix2 r k)) x (fun q => w (ix2 q j)) (broadcastInDim SRow ![1] hb1 b (ix2 (0 : Fin 1) j))
    (broadcastInDim SCol ![0] hm1 mf (ix2 r (0 : Fin 1)))
  rw [row_apply, Keepdims.column_apply]

end Cert.GraphLayer

end
-- ==== Proof.StripeValue.lean ====
/-
  What each launch of the stripe program leaves in its result array.

  Each of the two launches walks 25 grid points. At point t it is handed rows 400·t … 400·t + 399 of the adjacency
  matrix and of the mask column, and the whole of the features, the weights and the bias row; it stores one 400 × 128
  stripe, which is written back to rows 400·t … of the result. An entry (p, j) of that stripe is the layer's entry
  (400·t + p, j): the stripe's row p of the adjacency matrix is the matrix' row 400·t + p, and likewise for the mask.
  The 25 stripes tile the 10000 rows, so after the launch the result array is the layer of the five arrays the launch
  found, as one function.
-/
import proofs.«160218_g79293686219349_cont_9to1_m_1102_4_alg».proof.Proof.Gen.KernelIdeal.Frame
import proofs.«160218_g79293686219349_cont_9to1_m_1102_4_alg».proof.Proof.LayerEntry
import Idealize.ShloMosaic.Lib.ValueIdx
import Idealize.ShloMosaic.Lib.Pipeline.Value
import Idealize.ShloMosaic.PureOps.Ideal.Laws

set_option maxRecDepth 16384

noncomputable section

namespace Cert.KernelIdeal.Stripes

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- The stripe-by-features product contracts the stripe's columns with the features' rows. -/
theorem plain1 : DenseVec.Plain dot_S400x10000_S10000x128_S400x128_1_0_0_1_n_n where
  rank := rfl
  size := fun _ => rfl
  lhs := rfl
  rhs := rfl
  row := fun j q => by
    unfold DotDims.lhsIdx
    rw [dif_neg (show ¬(0 : Fin S400x10000.rank) ∈ dot_S400x10000_S10000x128_S400x128_1_0_0_1_n_n.lhsBatch by decide),
      dif_pos (show (0 : Fin S400x10000.rank) ∈ dot_S400x10000_S10000x128_S400x128_1_0_0_1_n_n.lhsNonContracting by decide)]
    rfl
  col := fun j q => by
    unfold DotDims.rhsIdx
    rw [dif_neg (show ¬(1 : Fin S10000x128.rank) ∈ dot_S400x10000_S10000x128_S400x128_1_0_0_1_n_n.rhsBatch by decide),
      dif_pos (show (1 : Fin S10000x128.rank) ∈ dot_S400x10000_S10000x128_S400x128_1_0_0_1_n_n.rhsNonContracting by decide)]
    rfl

/-- The product with the weights contracts the intermediate's columns with the weights' rows. -/
theorem plain2 : DenseVec.Plain dot_S400x128_S128x128_S400x128_1_0_0_1_n_n where
  rank := rfl
  size := fun _ => rfl
  lhs := rfl
  rhs := rfl
  row := fun j q => by
    unfold DotDims.lhsIdx
    rw [dif_neg (show ¬(0 : Fin S400x128.rank) ∈ dot_S400x128_S128x128_S400x128_1_0_0_1_n_n.lhsBatch by decide),
      dif_pos (show (0 : Fin S400x128.rank) ∈ dot_S400x128_S128x128_S400x128_1_0_0_1_n_n.lhsNonContracting by decide)]
    rfl
  col := fun j q => by
    unfold DotDims.rhsIdx
    rw [dif_neg (show ¬(1 : Fin S128x128.rank) ∈ dot_S400x128_S128x128_S400x128_1_0_0_1_n_n.rhsBatch by decide),
      dif_pos (show (1 : Fin S128x128.rank) ∈ dot_S400x128_S128x128_S400x128_1_0_0_1_n_n.rhsNonContracting by decide)]
    rfl

theorem hz : (![0, 0] : Fin 2 → Nat) = fun _ => 0 := funext fun a => by fin_cases a <;> rfl

-- the contents of the TensorCore's buffers when a launch is entered
variable (V : (c : Dev nD) → (b : Ref sig .tc) → Buf (Elt Ideal) ((c : Thread nD τ).loc b))

/-! ## Launch 0 -/

/-- The printed index maps of launch 0, decided over its 25 grid points: the adjacency stripe, the mask stripe and the
    result stripe move together down the rows; the features, the weights and the bias row stay at the origin. -/
theorem idx_facts0 : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_5.index t (0 : Fin 2) ≤ 24 ∧ win0_5.index t (1 : Fin 2) = 0 :=
  (by decide +kernel : ∀ t : Fin grid0.N, _)

/-- Every stripe of rows is some grid point's. -/
theorem idx_onto0 : ∀ q : Fin 25, ∃ t : Fin cfg0.N, win0_5.index t (0 : Fin 2) = q.val :=
  (by decide +kernel : ∀ q : Fin 25, ∃ t : Fin grid0.N, win0_5.index t (0 : Fin 2) = q.val)

/-- The body's stored value at an entry of the stripe is the layer's entry from the loaded blocks. -/
theorem pay0_entry (x0 : Vec Ideal S400x10000 .f32) (x1 : Vec Ideal S10000x128 .f32) (x2 : Vec Ideal S128x128 .f32)
    (x3 : Vec Ideal S1x128 .f32) (x4 : Vec Ideal S400x1 .f32) (y : S400x128.Idx) :
    k0_pay1 (F := Ideal) x0 x1 x2 x3 x4 y
      = GraphLayer.cell (fun k => x0 (ix2 (y 0) k)) x1 (fun q => x2 (ix2 q (y 1))) (x3 (ix2 (0 : Fin 1) (y 1))) (x4 (ix2 (y 0) (0 : Fin 1))) :=
  calc k0_pay1 (F := Ideal) x0 x1 x2 x3 x4 y
      = k0_pay1 (F := Ideal) x0 x1 x2 x3 x4 (ix2 (y 0) (y 1)) := congrArg _ (eq_ix2 y)
    _ = _ := by
      unfold k0_pay1
      simp only [shapeCast_self]
      exact GraphLayer.stripe_entry plain1 plain2 broadcasts_S1x128_S400x128 broadcasts_S400x1_S400x128 x0 x1 x2 x3 x4 (y 0) (y 1)

/-- WHAT GRID POINT t WRITES BACK is stripe t of the layer of the arrays as the launch finds them. -/
theorem flushed0 (c : Dev nD) (t : Fin cfg0.N) :
    (dat0 (F := Ideal) V c).flushed 5 t = ((cfg0.win 5).blk t).view.read (Elt Ideal)
      (GraphLayer.layer (V c main_arg1) (V c main_arg0) (V c main_arg3) (V c main_v2) (V c main_v1)) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz, View.ld_unit_zero (S := S128x128) hz,
    View.ld_unit_zero (S := S1x128) hz, View.ld_unit_zero (S := S400x1) hz]
  obtain ⟨e0, e1, e2, e3, e4, e5, e6, e7, e8, e9, e10, e11⟩ := idx_facts0 t
  funext y
  refine (pay0_entry _ _ _ _ _ y).trans ?_
  show _ = GraphLayer.layer (V c main_arg1) (V c main_arg0) (V c main_arg3) (V c main_v2) (V c main_v1) (((cfg0.win 5).blk t).view.emb y)
  unfold GraphLayer.layer
  refine GraphLayer.cell_congr (fun k => ?_) ?_ (fun q => ?_) ?_ ?_
  · show V c main_arg1 (((cfg0.win 0).blk t).view.emb (ix2 (y 0) k)) = V c main_arg1 (ix2 ((((cfg0.win 5).blk t).view.emb y) 0) k)
    refine congrArg (V c main_arg1) (funext fun a => Fin.ext ?_)
    match a with
    | ⟨0, _⟩ => show win0_0.index t (0 : Fin 2) * 400 + 1 * (y 0).val = win0_5.index t (0 : Fin 2) * 400 + 1 * (y 0).val; omega
    | ⟨1, _⟩ => show win0_0.index t (1 : Fin 2) * 10000 + 1 * k.val = k.val; omega
  · funext z
    show V c main_arg0 (((cfg0.win 1).blk t).view.emb z) = V c main_arg0 z
    refine congrArg (V c main_arg0) (funext fun a => Fin.ext ?_)
    match a with
    | ⟨0, _⟩ => show win0_1.index t (0 : Fin 2) * 10000 + 1 * (z 0).val = (z 0).val; omega
    | ⟨1, _⟩ => show win0_1.index t (1 : Fin 2) * 128 + 1 * (z 1).val = (z 1).val; omega
  · show V c main_arg3 (((cfg0.win 2).blk t).view.emb (ix2 q (y 1))) = V c main_arg3 (ix2 q ((((cfg0.win 5).blk t).view.emb y) 1))
    refine congrArg (V c main_arg3) (funext fun a => Fin.ext ?_)
    match a with
    | ⟨0, _⟩ => show win0_2.index t (0 : Fin 2) * 128 + 1 * q.val = q.val; omega
    | ⟨1, _⟩ => show win0_2.index t (1 : Fin 2) * 128 + 1 * (y 1).val = win0_5.index t (1 : Fin 2) * 128 + 1 * (y 1).val; omega
  · show V c main_v2 (((cfg0.win 3).blk t).view.emb (ix2 (0 : Fin 1) (y 1))) = V c main_v2 (ix2 (0 : Fin 1) ((((cfg0.win 5).blk t).view.emb y) 1))
    refine congrArg (V c main_v2) (funext fun a => Fin.ext ?_)
    match a with
    | ⟨0, _⟩ => show win0_3.index t (0 : Fin 2) * 1 + 1 * 0 = 0; omega
    | ⟨1, _⟩ => show win0_3.index t (1 : Fin 2) * 128 + 1 * (y 1).val = win0_5.index t (1 : Fin 2) * 128 + 1 * (y 1).val; omega
  · show V c main_v1 (((cfg0.win 4).blk t).view.emb (ix2 (y 0) (0 : Fin 1))) = V c main_v1 (ix2 ((((cfg0.win 5).blk t).view.emb y) 0) (0 : Fin 1))
    refine congrArg (V c main_v1) (funext fun a => Fin.ext ?_)
    match a with
    | ⟨0, _⟩ => show win0_4.index t (0 : Fin 2) * 400 + 1 * (y 0).val = win0_5.index t (0 : Fin 2) * 400 + 1 * (y 0).val; omega
    | ⟨1, _⟩ => show win0_4.index t (1 : Fin 2) * 1 + 1 * 0 = 0; omega

/-- An index of the result array is in point t's stripe iff each coordinate is in the stripe's range on its axis. -/
theorem mem_blk0 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v3).slice (win0_5.rect t)).set ↔ _
  rw [View.set_slice_whole, Rect.mem_set_unit]
  exact Iff.rfl

/-- The 25 stripes tile the array: row r is in the stripe of the point whose block index is r / 400. -/
theorem cover0 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto0 ⟨(i 0).val / 400, by omega⟩
  have q0 : win0_5.index t (0 : Fin 2) = (i 0).val / 400 := ht
  obtain ⟨-, -, -, -, -, -, -, -, -, -, -, e11⟩ := idx_facts0 t
  refine ⟨t, flush0_5 t, ?_⟩
  rw [mem_blk0]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- THE RESULT ARRAY after launch 0: the layer of the five arrays the launch found. -/
theorem array0 (c : Dev nD) :
    (dat0 (F := Ideal) V c).arrAt 5 cfg0.N
      = GraphLayer.layer (V c main_arg1) (V c main_arg0) (V c main_arg3) (V c main_v2) (V c main_v1) :=
  (dat0 (F := Ideal) V c).arrAt_eq_of_cover 5 _ (fun t _ => flushed0 V c t) (cover0)

/-! ## Launch 1 -/

/-- The printed index maps of launch 1, decided over its 25 grid points: the adjacency stripe, the mask stripe and the
    result stripe move together down the rows; the features, the weights and the bias row stay at the origin. -/
theorem idx_facts1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (0 : Fin 2) ≤ 24 ∧ win1_5.index t (1 : Fin 2) = 0 :=
  (by decide +kernel : ∀ t : Fin grid1.N, _)

/-- Every stripe of rows is some grid point's. -/
theorem idx_onto1 : ∀ q : Fin 25, ∃ t : Fin cfg1.N, win1_5.index t (0 : Fin 2) = q.val :=
  (by decide +kernel : ∀ q : Fin 25, ∃ t : Fin grid1.N, win1_5.index t (0 : Fin 2) = q.val)

/-- The body's stored value at an entry of the stripe is the layer's entry from the loaded blocks. -/
theorem pay1_entry (x0 : Vec Ideal S400x10000 .f32) (x1 : Vec Ideal S10000x128 .f32) (x2 : Vec Ideal S128x128 .f32)
    (x3 : Vec Ideal S1x128 .f32) (x4 : Vec Ideal S400x1 .f32) (y : S400x128.Idx) :
    k1_pay1 (F := Ideal) x0 x1 x2 x3 x4 y
      = GraphLayer.cell (fun k => x0 (ix2 (y 0) k)) x1 (fun q => x2 (ix2 q (y 1))) (x3 (ix2 (0 : Fin 1) (y 1))) (x4 (ix2 (y 0) (0 : Fin 1))) :=
  calc k1_pay1 (F := Ideal) x0 x1 x2 x3 x4 y
      = k1_pay1 (F := Ideal) x0 x1 x2 x3 x4 (ix2 (y 0) (y 1)) := congrArg _ (eq_ix2 y)
    _ = _ := by
      unfold k1_pay1
      simp only [shapeCast_self]
      exact GraphLayer.stripe_entry plain1 plain2 broadcasts_S1x128_S400x128 broadcasts_S400x1_S400x128 x0 x1 x2 x3 x4 (y 0) (y 1)

/-- WHAT GRID POINT t WRITES BACK is stripe t of the layer of the arrays as the launch finds them. -/
theorem flushed1 (c : Dev nD) (t : Fin cfg1.N) :
    (dat1 (F := Ideal) V c).flushed 5 t = ((cfg1.win 5).blk t).view.read (Elt Ideal)
      (GraphLayer.layer (V c main_arg1) (V c main_v3) (V c main_arg5) (V c main_v4) (V c main_v1)) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz, View.ld_unit_zero (S := S128x128) hz,
    View.ld_unit_zero (S := S1x128) hz, View.ld_unit_zero (S := S400x1) hz]
  obtain ⟨e0, e1, e2, e3, e4, e5, e6, e7, e8, e9, e10, e11⟩ := idx_facts1 t
  funext y
  refine (pay1_entry _ _ _ _ _ y).trans ?_
  show _ = GraphLayer.layer (V c main_arg1) (V c main_v3) (V c main_arg5) (V c main_v4) (V c main_v1) (((cfg1.win 5).blk t).view.emb y)
  unfold GraphLayer.layer
  refine GraphLayer.cell_congr (fun k => ?_) ?_ (fun q => ?_) ?_ ?_
  · show V c main_arg1 (((cfg1.win 0).blk t).view.emb (ix2 (y 0) k)) = V c main_arg1 (ix2 ((((cfg1.win 5).blk t).view.emb y) 0) k)
    refine congrArg (V c main_arg1) (funext fun a => Fin.ext ?_)
    match a with
    | ⟨0, _⟩ => show win1_0.index t (0 : Fin 2) * 400 + 1 * (y 0).val = win1_5.index t (0 : Fin 2) * 400 + 1 * (y 0).val; omega
    | ⟨1, _⟩ => show win1_0.index t (1 : Fin 2) * 10000 + 1 * k.val = k.val; omega
  · funext z
    show V c main_v3 (((cfg1.win 1).blk t).view.emb z) = V c main_v3 z
    refine congrArg (V c main_v3) (funext fun a => Fin.ext ?_)
    match a with
    | ⟨0, _⟩ => show win1_1.index t (0 : Fin 2) * 10000 + 1 * (z 0).val = (z 0).val; omega
    | ⟨1, _⟩ => show win1_1.index t (1 : Fin 2) * 128 + 1 * (z 1).val = (z 1).val; omega
  · show V c main_arg5 (((cfg1.win 2).blk t).view.emb (ix2 q (y 1))) = V c main_arg5 (ix2 q ((((cfg1.win 5).blk t).view.emb y) 1))
    refine congrArg (V c main_arg5) (funext fun a => Fin.ext ?_)
    match a with
    | ⟨0, _⟩ => show win1_2.index t (0 : Fin 2) * 128 + 1 * q.val = q.val; omega
    | ⟨1, _⟩ => show win1_2.index t (1 : Fin 2) * 128 + 1 * (y 1).val = win1_5.index t (1 : Fin 2) * 128 + 1 * (y 1).val; omega
  · show V c main_v4 (((cfg1.win 3).blk t).view.emb (ix2 (0 : Fin 1) (y 1))) = V c main_v4 (ix2 (0 : Fin 1) ((((cfg1.win 5).blk t).view.emb y) 1))
    refine congrArg (V c main_v4) (funext fun a => Fin.ext ?_)
    match a with
    | ⟨0, _⟩ => show win1_3.index t (0 : Fin 2) * 1 + 1 * 0 = 0; omega
    | ⟨1, _⟩ => show win1_3.index t (1 : Fin 2) * 128 + 1 * (y 1).val = win1_5.index t (1 : Fin 2) * 128 + 1 * (y 1).val; omega
  · show V c main_v1 (((cfg1.win 4).blk t).view.emb (ix2 (y 0) (0 : Fin 1))) = V c main_v1 (ix2 ((((cfg1.win 5).blk t).view.emb y) 0) (0 : Fin 1))
    refine congrArg (V c main_v1) (funext fun a => Fin.ext ?_)
    match a with
    | ⟨0, _⟩ => show win1_4.index t (0 : Fin 2) * 400 + 1 * (y 0).val = win1_5.index t (0 : Fin 2) * 400 + 1 * (y 0).val; omega
    | ⟨1, _⟩ => show win1_4.index t (1 : Fin 2) * 1 + 1 * 0 = 0; omega

/-- An index of the result array is in point t's stripe iff each coordinate is in the stripe's range on its axis. -/
theorem mem_blk1 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v5).slice (win1_5.rect t)).set ↔ _
  rw [View.set_slice_whole, Rect.mem_set_unit]
  exact Iff.rfl

/-- The 25 stripes tile the array: row r is in the stripe of the point whose block index is r / 400. -/
theorem cover1 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ := idx_onto1 ⟨(i 0).val / 400, by omega⟩
  have q0 : win1_5.index t (0 : Fin 2) = (i 0).val / 400 := ht
  obtain ⟨-, -, -, -, -, -, -, -, -, -, -, e11⟩ := idx_facts1 t
  refine ⟨t, flush1_5 t, ?_⟩
  rw [mem_blk1]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 128 ≤ (i 1).val ∧ (i 1).val < win1_5.index t (1 : Fin 2) * 128 + 128; omega

/-- THE RESULT ARRAY after launch 1: the layer of the five arrays the launch found. -/
theorem array1 (c : Dev nD) :
    (dat1 (F := Ideal) V c).arrAt 5 cfg1.N
      = GraphLayer.layer (V c main_arg1) (V c main_v3) (V c main_arg5) (V c main_v4) (V c main_v1) :=
  (dat1 (F := Ideal) V c).arrAt_eq_of_cover 5 _ (fun t _ => flushed1 V c t) (cover1)

end Cert.KernelIdeal.Stripes

end
-- ==== Proof.Network.lean ====
/-
  The two-layer network as one function of its seven arguments.

  The mask arrives as bits; the host turns it into numbers and sets it as a column, once, for both layers. Each bias
  vector is set as a row. The second layer takes the first layer's result as its features, the same adjacency matrix
  and the same mask column. The host's own program spells each layer with whole-array operations; composed, its result
  is this function.
-/
import proofs.«160218_g79293686219349_cont_9to1_m_1102_4_alg».proof.Proof.LayerEntry

noncomputable section

namespace Cert.GraphLayer

open Idealize.ShloMosaic Idealize.ShloMosaic.ValueIdx

/-- The mask as numbers, set as a column. -/
def maskCol (hm : (⟨1, ![10000]⟩ : Shape).BroadcastsInDim SCol ![0]) (mk : IVec (⟨1, ![10000]⟩ : Shape) 1) : SCol.Idx → EReal :=
  broadcastInDim SCol ![0] hm (uitofp (F := Ideal) .f32 mk)

/-- A bias vector set as a row. -/
def biasRow (hb : (⟨1, ![128]⟩ : Shape).BroadcastsInDim SRow ![1]) (b : FVec Ideal (⟨1, ![128]⟩ : Shape) .f32) : SRow.Idx → EReal :=
  broadcastInDim SRow ![1] hb b

/-- Both layers: the second on the first's result. -/
def network (hb : (⟨1, ![128]⟩ : Shape).BroadcastsInDim SRow ![1]) (hm : (⟨1, ![10000]⟩ : Shape).BroadcastsInDim SCol ![0])
    (x : FVec Ideal SFeat .f32) (adj : FVec Ideal SAdj .f32) (mk : IVec (⟨1, ![10000]⟩ : Shape) 1)
    (w0 : FVec Ideal SW .f32) (b0 : FVec Ideal (⟨1, ![128]⟩ : Shape) .f32)
    (w1 : FVec Ideal SW .f32) (b1 : FVec Ideal (⟨1, ![128]⟩ : Shape) .f32) : SFeat.Idx → EReal :=
  layer adj (layer adj x w0 (biasRow hb b0) (maskCol hm mk)) w1 (biasRow hb b1) (maskCol hm mk)

/-- The host's two layers, spelt with whole-array operations, are the network. -/
theorem host_network {D1 : DotDims SAdj SFeat SFeat} {D2 : DotDims SFeat SW SFeat}
    (h1 : DenseVec.Plain D1) (h2 : DenseVec.Plain D2)
    (hb1 : (⟨1, ![128]⟩ : Shape).BroadcastsInDim SRow ![1]) (hb2 : SRow.BroadcastsInDim SFeat ![0, 1])
    (hm1 : (⟨1, ![10000]⟩ : Shape).BroadcastsInDim SCol ![0]) (hm2 : SCol.BroadcastsInDim SFeat ![0, 1])
    (hz : (⟨0, ![]⟩ : Shape).BroadcastsInDim SFeat ![])
    (x : FVec Ideal SFeat .f32) (adj : FVec Ideal SAdj .f32) (mk : IVec (⟨1, ![10000]⟩ : Shape) 1)
    (w0 : FVec Ideal SW .f32) (b0 : FVec Ideal (⟨1, ![128]⟩ : Shape) .f32)
    (w1 : FVec Ideal SW .f32) (b1 : FVec Ideal (⟨1, ![128]⟩ : Shape) .f32) :
    maximumf (mulf (addf (Host.dotGeneral D2 none (Host.dotGeneral D1 none adj
        (maximumf (mulf (addf (Host.dotGeneral D2 none (Host.dotGeneral D1 none adj x) w0)
            (broadcastInDim SFeat ![0, 1] hb2 (broadcastInDim SRow ![1] hb1 b0)))
            (broadcastInDim SFeat ![0, 1] hm2 (broadcastInDim SCol ![0] hm1 (uitofp (F := Ideal) .f32 mk))))
          (broadcastInDim SFeat ![] hz (constant (F := Ideal) (⟨0, ![]⟩ : Shape) .f32 0x00000000#32)))) w1)
        (broadcastInDim SFeat ![0, 1] hb2 (broadcastInDim SRow ![1] hb1 b1)))
        (broadcastInDim SFeat ![0, 1] hm2 (broadcastInDim SCol ![0] hm1 (uitofp (F := Ideal) .f32 mk))))
      (broadcastInDim SFeat ![] hz (constant (F := Ideal) (⟨0, ![]⟩ : Shape) .f32 0x00000000#32))
      = network hb1 hm1 x adj mk w0 b0 w1 b1 := by
  unfold network biasRow maskCol
  rw [host_layer h1 h2 hb1 hb2 hm1 hm2 hz adj x w0 b0 (uitofp (F := Ideal) .f32 mk),
    host_layer h1 h2 hb1 hb2 hm1 hm2 hz adj _ w1 b1 (uitofp (F := Ideal) .f32 mk)]

end Cert.GraphLayer

end
-- ==== Proof.KernelRun.lean ====
/-
  The stripe program's run, with its result named.

  The program is four segments: the host prepares the mask column and the first bias row; the first launch writes the
  first layer; the host prepares the second bias row; the second launch writes the second layer from the first. Every
  weakly fair execution ends with every buffer at the contents the segments leave in turn, so the result buffer ends
  at what the second launch leaves there. Walking back through the segments: the second launch found the adjacency
  matrix and its weights as launched, the mask column and its bias row as the host made them, and for features what
  the first launch left, which is the first layer of the arrays as launched. The result is therefore the second layer
  of the first layer, as one function of the arguments.
-/
import proofs.«160218_g79293686219349_cont_9to1_m_1102_4_alg».proof.Proof.Gen.KernelIdeal.Frame
import proofs.«160218_g79293686219349_cont_9to1_m_1102_4_alg».proof.Proof.StripeValue
import proofs.«160218_g79293686219349_cont_9to1_m_1102_4_alg».proof.Proof.Network
import Idealize.ShloMosaic.Lib.StableHlo.Run

set_option maxRecDepth 16384

noncomputable section

namespace Cert.KernelIdeal.Stripes

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at what the second launch leaves
    in it and the arguments as launched. -/
theorem run_named : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Run

section Value

open Idealize.ShloMosaic.StableHlo

variable (m : (ℓ : Loc nD τ sig) → Buf (Elt Ideal) ℓ) (ρ : Dev nD → PrngReg) (c : Dev nD)

/-! ### What the first launch finds: the arguments as launched, the mask column and the first bias row as the host made them -/

theorem V1_arg0 : V1 m ρ c main_arg0 = m ((c : Thread nD τ).loc main_arg0) := by
  show StableHlo.after hostOps0 (W0 m ρ c) (Proc.devRef .tc main_arg0) = _
  after_results
theorem V1_arg1 : V1 m ρ c main_arg1 = m ((c : Thread nD τ).loc main_arg1) := by
  show StableHlo.after hostOps0 (W0 m ρ c) (Proc.devRef .tc main_arg1) = _
  after_results
theorem V1_arg3 : V1 m ρ c main_arg3 = m ((c : Thread nD τ).loc main_arg3) := by
  show StableHlo.after hostOps0 (W0 m ρ c) (Proc.devRef .tc main_arg3) = _
  after_results
theorem V1_v1 : V1 m ρ c main_v1 = GraphLayer.maskCol bcast_S10000_S10000x1_0 (m ((c : Thread nD τ).loc main_arg2)) := by
  show StableHlo.after hostOps0 (W0 m ρ c) (Proc.devRef .tc main_v1) = _
  after_results
  rfl
theorem V1_v2 : V1 m ρ c main_v2 = GraphLayer.biasRow bcast_S128_S1x128_1 (m ((c : Thread nD τ).loc main_arg4)) := by
  show StableHlo.after hostOps0 (W0 m ρ c) (Proc.devRef .tc main_v2) = _
  after_results
  rfl

/-! ### What the second launch finds -/

/-- The adjacency matrix, as launched: the launch only reads it. -/
theorem V3_arg1 : V3 m ρ c main_arg1 = m ((c : Thread nD τ).loc main_arg1) :=
  ((W4_arr m ρ c 0).trans (((dat1 (V3 m ρ) c).arrAt_in 0 rfl _).trans (A_eq1 (V3 m ρ) c 0))).symm.trans (W4_main_arg1 m ρ c)
/-- The second weights, as launched. -/
theorem V3_arg5 : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)
/-- The second bias vector is untouched by the first launch and by the host's first stretch. -/
theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results
/-- The second bias row, as the host's second stretch makes it. -/
theorem V3_v4 : V3 m ρ c main_v4 = GraphLayer.biasRow bcast_S128_S1x128_1 (m ((c : Thread nD τ).loc main_arg6)) := by
  have h : V3 m ρ c main_v4 = broadcastInDim S1x128 ![1] bcast_S128_S1x128_1 (W2 m ρ c (Proc.devRef .tc main_arg6)) := by
    show StableHlo.after hostOps1 (W2 m ρ c) (Proc.devRef .tc main_v4) = _
    after_results
  rw [h, W2_arg6]
  rfl
/-- The mask column: the first launch only read it, the second stretch does not write it. -/
theorem V3_v1 : V3 m ρ c main_v1 = GraphLayer.maskCol bcast_S10000_S10000x1_0 (m ((c : Thread nD τ).loc main_arg2)) := by
  have h : V3 m ρ c main_v1 = V1 m ρ c main_v1 := by
    show StableHlo.after hostOps1 (W2 m ρ c) (Proc.devRef .tc main_v1) = _
    after_results
    exact (W2_arr m ρ c 4).trans (((dat0 (V1 m ρ) c).arrAt_in 4 rfl _).trans (A_eq0 (V1 m ρ) c 4))
  rw [h, V1_v1]
/-- The features of the second launch are what the first launch left: the first layer of the arguments. -/
theorem V3_v3 : V3 m ρ c main_v3 = GraphLayer.layer (m ((c : Thread nD τ).loc main_arg1)) (m ((c : Thread nD τ).loc main_arg0))
    (m ((c : Thread nD τ).loc main_arg3)) (GraphLayer.biasRow bcast_S128_S1x128_1 (m ((c : Thread nD τ).loc main_arg4)))
    (GraphLayer.maskCol bcast_S10000_S10000x1_0 (m ((c : Thread nD τ).loc main_arg2))) := by
  have h : V3 m ρ c main_v3 = (dat0 (V1 m ρ) c).arrAt 5 cfg0.N := by
    show StableHlo.after hostOps1 (W2 m ρ c) (Proc.devRef .tc main_v3) = _
    after_results
    exact W2_arr m ρ c 5
  rw [h, array0 (V1 m ρ) c, V1_arg1, V1_arg0, V1_arg3, V1_v2, V1_v1]

/-- THE RESULT: what the second launch leaves in the result buffer is the network of the arguments as launched. -/
theorem result_eq : W4 m ρ c (Proc.devRef .tc main_v5)
    = GraphLayer.network bcast_S128_S1x128_1 bcast_S10000_S10000x1_0 (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  have h : W4 m ρ c (Proc.devRef .tc main_v5) = (dat1 (V3 m ρ) c).arrAt 5 cfg1.N := W4_arr m ρ c 5
  rw [h, array1 (V3 m ρ) c, V3_arg1, V3_v3, V3_arg5, V3_v4, V3_v1]
  rfl

/-- The run at the extended reals: the result buffer ends at the network of the arguments, the arguments as launched. -/
theorem run : θ_run defs (onTc (τ := τ) (main (F := Ideal))) ⟨m, fun _ => 0, ρ⟩ (fun r => ∀ c : Dev nD,
      r.2.mem ((c.tc : Thread nD τ).loc main_v5)
        = GraphLayer.network bcast_S128_S1x128_1 bcast_S10000_S10000x1_0 (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (run_named m ρ)

end Value

end Cert.KernelIdeal.Stripes

end
-- ==== Proof.ReferenceLayers.lean ====
/-
  The host program's result is the network.

  The host program is two rounds of the same whole-array operations: contract the adjacency matrix with the features,
  contract the result with the weights, add the bias laid along every row, multiply by the mask laid along every
  column, take the maximum with zero; the second round takes the first round's result as its features. Its two
  contractions each sum over the left operand's second axis and the right operand's first, so each is the plain sum
  over the shared coordinate, and the composed term is the network of the arguments.
-/
import proofs.«160218_g79293686219349_cont_9to1_m_1102_4_alg».proof.Proof.Gen.ReferenceIdeal.Run
import proofs.«160218_g79293686219349_cont_9to1_m_1102_4_alg».proof.Proof.Gen.ReferenceIdeal.Read
import proofs.«160218_g79293686219349_cont_9to1_m_1102_4_alg».proof.Proof.Network

noncomputable section

namespace Cert.ReferenceIdeal.Layers

open Cert.ReferenceIdeal Cert.ReferenceIdeal.Gen Idealize.ShloMosaic Idealize.ShloMosaic.TcCoe Idealize.ShloMosaic.ValueIdx

/-- The adjacency-by-features contraction sums over the adjacency matrix' columns and the features' rows. -/
theorem plain1 : DenseVec.Plain dot_S10000x10000_S10000x128_S10000x128_1_0_0_1_n_n where
  rank := rfl
  size := fun _ => rfl
  lhs := rfl
  rhs := rfl
  row := Read.lhs_main_v2_0
  col := Read.rhs_main_v2_1

/-- The contraction with the weights sums over the intermediate's columns and the weights' rows. -/
theorem plain2 : DenseVec.Plain dot_S10000x128_S128x128_S10000x128_1_0_0_1_n_n where
  rank := rfl
  size := fun _ => rfl
  lhs := rfl
  rhs := rfl
  row := Read.lhs_main_v3_0
  col := Read.rhs_main_v3_1

/-- The host program's composed term, of any seven arrays, is the network of them. -/
theorem result_eq (x : FVec Ideal S10000x128 .f32) (adj : FVec Ideal S10000x10000 .f32) (mk : IVec S10000 1)
    (w0 : FVec Ideal S128x128 .f32) (b0 : FVec Ideal S128 .f32) (w1 : FVec Ideal S128x128 .f32) (b1 : FVec Ideal S128 .f32) :
    maximumf (mulf (addf (Host.dotGeneral dot_S10000x128_S128x128_S10000x128_1_0_0_1_n_n none (Host.dotGeneral dot_S10000x10000_S10000x128_S10000x128_1_0_0_1_n_n none adj
        (maximumf (mulf (addf (Host.dotGeneral dot_S10000x128_S128x128_S10000x128_1_0_0_1_n_n none (Host.dotGeneral dot_S10000x10000_S10000x128_S10000x128_1_0_0_1_n_n none adj x) w0)
            (broadcastInDim S10000x128 ![0, 1] bcast_S1x128_S10000x128_0_1 (broadcastInDim S1x128 ![1] bcast_S128_S1x128_1 b0)))
            (broadcastInDim S10000x128 ![0, 1] bcast_S10000x1_S10000x128_0_1 (broadcastInDim S10000x1 ![0] bcast_S10000_S10000x1_0 (uitofp (F := Ideal) .f32 mk))))
          (broadcastInDim S10000x128 ![] bcast_S_S10000x128 (constant (F := Ideal) S_ .f32 0x00000000#32)))) w1)
        (broadcastInDim S10000x128 ![0, 1] bcast_S1x128_S10000x128_0_1 (broadcastInDim S1x128 ![1] bcast_S128_S1x128_1 b1)))
        (broadcastInDim S10000x128 ![0, 1] bcast_S10000x1_S10000x128_0_1 (broadcastInDim S10000x1 ![0] bcast_S10000_S10000x1_0 (uitofp (F := Ideal) .f32 mk))))
      (broadcastInDim S10000x128 ![] bcast_S_S10000x128 (constant (F := Ideal) S_ .f32 0x00000000#32))
      = GraphLayer.network bcast_S128_S1x128_1 bcast_S10000_S10000x1_0 x adj mk w0 b0 w1 b1 :=
  GraphLayer.host_network plain1 plain2 bcast_S128_S1x128_1 bcast_S1x128_S10000x128_0_1 bcast_S10000_S10000x1_0
    bcast_S10000x1_S10000x128_0_1 bcast_S_S10000x128 x adj mk w0 b0 w1 b1

end Cert.ReferenceIdeal.Layers

end
-- ==== Proof.lean ====
/-
  The proof of `Cert.Claim`: a two-layer dense graph network computed stripe by stripe on the device, against the same
  network computed with whole-array operations on the host.

  Per layer both compute  Y (r, j) = max ( ( ∑ q, ( ∑ k, A (r, k) · X (k, q) ) · W (q, j) + b (j) ) · μ (r), 0 ),
  the second layer on the first's result. The device works on 25 stripes of 400 rows; a stripe's entry (p, j) at grid
  point t is the entry (400·t + p, j) of the layer, and the stripes tile the rows, so each launch leaves the layer of
  the arrays it found (Proof/StripeValue.lean); walking back through the program's segments the second launch's result
  is the network of the arguments (Proof/KernelRun.lean). The host's composed term is the same network
  (Proof/ReferenceLayers.lean, Proof/Network.lean). Both sides form the sums in the same grouping and otherwise act
  one entry at a time (Proof/LayerEntry.lean), so nothing here depends on the inputs being finite.

  The three frames are the generated ones (the host program's is its generated run with the result dropped); the
  idealization rewrote nothing, so there is nothing to preserve.
-/
import proofs.«160218_g79293686219349_cont_9to1_m_1102_4_alg».proof.Defs
import proofs.«160218_g79293686219349_cont_9to1_m_1102_4_alg».proof.Proof.Gen.Kernel
import proofs.«160218_g79293686219349_cont_9to1_m_1102_4_alg».proof.Proof.Gen.Kernel.Skeleton
import proofs.«160218_g79293686219349_cont_9to1_m_1102_4_alg».proof.Proof.Gen.Kernel.Launch
import proofs.«160218_g79293686219349_cont_9to1_m_1102_4_alg».proof.Proof.Gen.Kernel.Points
import proofs.«160218_g79293686219349_cont_9to1_m_1102_4_alg».proof.Proof.Gen.Kernel.Frame
import proofs.«160218_g79293686219349_cont_9to1_m_1102_4_alg».proof.Proof.Gen.KernelIdeal
import proofs.«160218_g79293686219349_cont_9to1_m_1102_4_alg».proof.Proof.Gen.KernelIdeal.Skeleton
import proofs.«160218_g79293686219349_cont_9to1_m_1102_4_alg».proof.Proof.Gen.KernelIdeal.Launch
import proofs.«160218_g79293686219349_cont_9to1_m_1102_4_alg».proof.Proof.Gen.KernelIdeal.Points
import proofs.«160218_g79293686219349_cont_9to1_m_1102_4_alg».proof.Proof.Gen.KernelIdeal.Frame
import proofs.«160218_g79293686219349_cont_9to1_m_1102_4_alg».proof.Proof.Gen.ReferenceIdeal
import proofs.«160218_g79293686219349_cont_9to1_m_1102_4_alg».proof.Proof.Gen.ReferenceIdeal.Run
import proofs.«160218_g79293686219349_cont_9to1_m_1102_4_alg».proof.Proof.Gen.ReferenceIdeal.Read
import proofs.«160218_g79293686219349_cont_9to1_m_1102_4_alg».proof.Proof.Gen.Pre_finite_inputs
import proofs.«160218_g79293686219349_cont_9to1_m_1102_4_alg».proof.Proof.KernelRun
import proofs.«160218_g79293686219349_cont_9to1_m_1102_4_alg».proof.Proof.ReferenceLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the device's run ends with the result buffer at the network of the
    arguments, and so does the host's. -/
theorem algebraic : Cert.algebraic_KernelIdeal_ReferenceIdeal := by
  intro m ρ m' ρ' _ hagree
  refine ⟨_, Cert.KernelIdeal.Stripes.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.Layers.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
